-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S64x262144 : Shape := ⟨2, ![64, 262144]⟩
abbrev S1x1 : Shape := ⟨2, ![1, 1]⟩
abbrev S64x4096 : Shape := ⟨2, ![64, 4096]⟩
abbrev S64x1 : Shape := ⟨2, ![64, 1]⟩
abbrev S64 : Shape := ⟨1, ![64]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S1x1, .f32⟩
  | .hbm, ⟨5, _⟩ => ⟨S_, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S1x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v65 : BitVec 1 := Scalar.cmpi .eq arg0 c63_i32
  let v66 : BitVec 32 := Scalar.extui v65
  let c0_i32_34 : BitVec 32 := 0#32
  let v67 : BitVec 1 := Scalar.cmpi .ne v66 c0_i32_34
  v67

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x1x512x512_S64x262144 : S64x1x512x512.ShapeCasts S64x262144
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  natLt_1_32 : 1 < 32
  reduces_S64x4096_S64 : S64x4096.Reduces [1] S64
  shapeCasts_S64_S64x1 : S64.ShapeCasts S64x1
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x262144.size a
  hwx0_0 : ∀ i : grid0.Coords, EltTy.bits .f32 = 32 ∨ (Rect.block (s := S64x262144) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x262144.size a
  hwx0_1 : ∀ i : grid0.Coords, EltTy.bits .f32 = 32 ∨ (Rect.block (s := S64x262144) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S64x262144 : Shape := ⟨2, ![64, 262144]⟩
abbrev S_ : Shape := ⟨0, ![]⟩
abbrev S64 : Shape := ⟨1, ![64]⟩

abbrev nBuf : Space → Nat
  | .hbm => 94
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S_, .f32⟩
  | .hbm, ⟨5, _⟩ => ⟨S64x262144, .f32⟩
  | .hbm, ⟨6, _⟩ => ⟨S64x262144, .i1⟩
  | .hbm, ⟨7, _⟩ => ⟨S64x262144, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .i1⟩
  | .hbm, ⟨16, _⟩ => ⟨S_, .f32⟩
  | .hbm, ⟨17, _⟩ => ⟨S64x262144, .f32⟩
  | .hbm, ⟨18, _⟩ => ⟨S64x262144, .f32⟩
  | .hbm, ⟨19, _⟩ => ⟨S64x262144, .f32⟩
  | .hbm, ⟨20, _⟩ => ⟨S64x262144, .f32⟩
  | .hbm, ⟨21, _⟩ => ⟨S64x262144, .f32⟩
  | .hbm, ⟨22, _⟩ => ⟨S64x262144, .f32⟩
  | .hbm, ⟨23, _⟩ => ⟨S64x262144, .f32⟩
  | .hbm, ⟨24, _⟩ => ⟨S64x262144, .f32⟩
  | .hbm, ⟨25, _⟩ => ⟨S64x262144, .f32⟩
  | .hbm, ⟨26, _⟩ => ⟨S_, .f32⟩
  | .hbm, ⟨27, _⟩ => ⟨S64x262144, .f32⟩
  | .hbm, ⟨28, _⟩ => ⟨S64x262144, .f32⟩
  | .hbm, ⟨29, _⟩ => ⟨S_, .f32⟩
  | .hbm, ⟨30, _⟩ => ⟨S64x262144, .f32⟩
  | .hbm, ⟨31, _⟩ => ⟨S64x262144, .f32⟩
  | .hbm, ⟨32, _⟩ => ⟨S_, .f32⟩
  | .hbm, ⟨33, _⟩ => ⟨S64x262144, .f32⟩
  | .hbm, ⟨34, _⟩ => ⟨S64x262144, .f32⟩
  | .hbm, ⟨35, _⟩ => ⟨S64x262144, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64x262144, .f32⟩
  | .hbm, ⟨42, _⟩ => ⟨S64x262144, .f32⟩
  | .hbm, ⟨43, _⟩ => ⟨S_, .f32⟩
  | .hbm, ⟨44, _⟩ => ⟨S64x262144, .f32⟩
  | .hbm, ⟨45, _⟩ => ⟨S64x262144, .f32⟩
  | .hbm, ⟨46, _⟩ => ⟨S_, .f32⟩
  | .hbm, ⟨47, _⟩ => ⟨S64x262144, .f32⟩
  | .hbm, ⟨48, _⟩ => ⟨S64x262144, .f32⟩
  | .hbm, ⟨49, _⟩ => ⟨S64x262144, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩
abbrev main_cst_13 : Ref sig .tc := ⟨.hbm, 54, rfl⟩
abbrev main_v38 : Ref sig .tc := ⟨.hbm, 55, rfl⟩
abbrev main_v39 : Ref sig .tc := ⟨.hbm, 56, rfl⟩
abbrev main_cst_14 : Ref sig .tc := ⟨.hbm, 57, rfl⟩
abbrev main_v40 : Ref sig .tc := ⟨.hbm, 58, rfl⟩
abbrev main_v41 : Ref sig .tc := ⟨.hbm, 59, rfl⟩
abbrev main_cst_15 : Ref sig .tc := ⟨.hbm, 60, rfl⟩
abbrev main_v42 : Ref sig .tc := ⟨.hbm, 61, rfl⟩
abbrev main_v43 : Ref sig .tc := ⟨.hbm, 62, rfl⟩
abbrev main_cst_16 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_17 : Ref sig .tc := ⟨.hbm, 67, rfl⟩
abbrev main_v47 : Ref sig .tc := ⟨.hbm, 68, rfl⟩
abbrev main_v48 : Ref sig .tc := ⟨.hbm, 69, rfl⟩
abbrev main_cst_18 : Ref sig .tc := ⟨.hbm, 70, rfl⟩
abbrev main_v49 : Ref sig .tc := ⟨.hbm, 71, rfl⟩
abbrev main_v50 : Ref sig .tc := ⟨.hbm, 72, rfl⟩
abbrev main_cst_19 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_20 : Ref sig .tc := ⟨.hbm, 78, rfl⟩
abbrev main_v55 : Ref sig .tc := ⟨.hbm, 79, rfl⟩
abbrev main_cst_21 : Ref sig .tc := ⟨.hbm, 80, rfl⟩
abbrev main_call0_v0 : Ref sig .tc := ⟨.hbm, 81, rfl⟩
abbrev main_call0_v1 : Ref sig .tc := ⟨.hbm, 82, rfl⟩
abbrev main_v56 : Ref sig .tc := ⟨.hbm, 83, rfl⟩
abbrev main_cst_22 : Ref sig .tc := ⟨.hbm, 84, rfl⟩
abbrev main_v57 : Ref sig .tc := ⟨.hbm, 85, rfl⟩
abbrev main_cst_23 : Ref sig .tc := ⟨.hbm, 86, rfl⟩
abbrev main_v58 : Ref sig .tc := ⟨.hbm, 87, rfl⟩
abbrev main_cst_24 : Ref sig .tc := ⟨.hbm, 88, rfl⟩
abbrev main_v59 : Ref sig .tc := ⟨.hbm, 89, rfl⟩
abbrev main_v60 : Ref sig .tc := ⟨.hbm, 90, rfl⟩
abbrev main_cst_25 : Ref sig .tc := ⟨.hbm, 91, rfl⟩
abbrev main_call1_v0 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  shapeCasts_S64x1x512x512_S64x262144 : S64x1x512x512.ShapeCasts S64x262144
  bcast_S_S64x262144 : S_.BroadcastsInDim S64x262144 (![] : Fin 0 → Fin S64x262144.rank)
  reducesTo_S64x262144_S64_d1 : S64x262144.ReducesTo [1] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.LossSpec.lean ====
/-
  The small-target loss as one function of the logits and the targets, on the extended reals.

  For a row b of the [64, 262144] logits X and targets T, five totals over the row's 262144 cells:
    the foreground count            sum of [T > 1/2],
    the weighted cross-entropy      sum of (max(x,0) - x t + log1p(exp(-|x|))) * min(1 + 10 t, 20),
    the intersection                sum of sigmoid(x) * t,
    the prediction mass             sum of sigmoid(x),
    the target mass                 sum of t.
  A row is valid when its foreground share (count / 262144) is below the threshold; its sample loss is
  0.6 * (cross-entropy / 262144) + 0.4 * (1 - (2 * intersection + eps) / (prediction + target + eps)). The loss is the
  sum of the valid rows' sample losses divided by max(number of valid rows, 1), or zero when no row is valid.
  Float literals stay the words the programs print; only the zero word is ever evaluated.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- A float word read on the extended reals. -/
abbrev lit (w : BitVec 32) : EReal := Ideal.ofBits .f32 w

/-- A one-bit mask as the number 0 or 1. -/
def maskVal (b : BitVec 1) : EReal := ((b.toNat : ℝ) : EReal)

/-- Reading the mask widened to 32 bits as a signed integer gives the same number: the widened word is 0 or 1. -/
theorem toInt_setWidth (b : BitVec 1) : (((b.setWidth 32).toInt : ℝ) : EReal) = maskVal b := by
  have hb : b = 0#1 ∨ b = 1#1 := by
    rcases Nat.lt_or_ge b.toNat 1 with h | h
    · left; apply BitVec.eq_of_toNat_eq; simp; omega
    · right; apply BitVec.eq_of_toNat_eq; have := b.isLt; simp at this ⊢; omega
  rcases hb with rfl | rfl <;> simp [maskVal]

/-! ## One cell -/

/-- Foreground indicator of a target value. -/
def fgTerm (_x t : EReal) : EReal := maskVal (Ideal.cmp .ogt t (lit 0x3F000000#32))

/-- Weighted binary cross-entropy with logits, in its overflow-free form. -/
def wbceTerm (x t : EReal) : EReal :=
  (max x (lit 0x00000000#32) - x * t + Ideal.log1p (Ideal.exp (-(max x (-x)))))
    * min (lit 0x3F800000#32 + lit 0x41200000#32 * t) (lit 0x41A00000#32)

/-- Sigmoid of the logit times the target. -/
def ptTerm (x t : EReal) : EReal := Ideal.logistic x * t

/-- Sigmoid of the logit. -/
def pTerm (x _t : EReal) : EReal := Ideal.logistic x

/-- The target. -/
def tTerm (_x t : EReal) : EReal := t

/-! ## One row -/

/-- The [64, 262144] arrays, as functions of an index. -/
abbrev Arr : Type := (⟨2, ![64, 262144]⟩ : Shape).Idx → EReal

/-- A row's total of a cell term. -/
def rowTotal (f : EReal → EReal → EReal) (X T : Arr) (b : Fin 64) : EReal :=
  ∑ k : Fin 262144, f (X (ix2 b k)) (T (ix2 b k))

/-! ## The finish -/

/-- Is the row valid: its foreground share below the threshold. -/
def valid (sFg : Fin 64 → EReal) (b : Fin 64) : BitVec 1 :=
  Ideal.cmp .olt (Ideal.div (sFg b) (lit 0x48800000#32)) (lit 0x3D4CCCCD#32)

/-- A row's sample loss from its totals. -/
def sample (sWbce sPt sP sT : Fin 64 → EReal) (b : Fin 64) : EReal :=
  lit 0x3F19999A#32 * Ideal.div (sWbce b) (lit 0x48800000#32)
    + lit 0x3ECCCCCD#32 * (lit 0x3F800000#32
        - Ideal.div (lit 0x40000000#32 * sPt b + lit 0x3727C5AC#32) (sP b + sT b + lit 0x3727C5AC#32))

/-- The number of valid rows. -/
def nValid (sFg : Fin 64 → EReal) : EReal := ∑ b : Fin 64, maskVal (valid sFg b)

/-- The valid rows' sample losses, summed. -/
def sumValid (sFg sWbce sPt sP sT : Fin 64 → EReal) : EReal :=
  ∑ b : Fin 64, Scalar.select (valid sFg b) (sample sWbce sPt sP sT b) (lit 0x00000000#32)

/-- The loss from the five per-row totals. -/
def total (sFg sWbce sPt sP sT : Fin 64 → EReal) : EReal :=
  Scalar.select (Ideal.cmp .ogt (nValid sFg) (lit 0x00000000#32))
    (Ideal.div (sumValid sFg sWbce sPt sP sT) (max (nValid sFg) (lit 0x3F800000#32)))
    (lit 0x00000000#32)

/-- The loss of logits `X` and targets `T`. -/
def loss (X T : Arr) : EReal :=
  total (rowTotal fgTerm X T) (rowTotal wbceTerm X T) (rowTotal ptTerm X T) (rowTotal pTerm X T) (rowTotal tTerm X T)

end Cert.Loss

end
-- ==== Proof.LibColumnSum.lean ====
/-
  Reading a sum down the columns of a matrix, and a sum over the indices of a vector.

  A float sum along the first axis of an `[m, n]` array is an `[n]` vector; read at column `q` it is the sum over the
  `m` rows of the entries of that column: putting the summed coordinate `k` back into the reduced index `q` gives the
  entry `(k, q)`. A vector's indices are the functions from the one axis into `Fin n`; a sum over them is the sum over
  `Fin n` of the summand at the index with that coordinate.
-/
import Idealize.ShloMosaic.Lib.Pipeline.Value
import Idealize.ShloMosaic.Lib.ValueIdx
import Idealize.ShloMosaic.PureOps.Ideal.Laws

noncomputable section

open scoped BigOperators

namespace Cert.LibColumnSum

open Idealize.ShloMosaic Idealize.ShloMosaic.ValueIdx

/-- Putting the summed row number `k` back into the reduced index `q` gives the entry `(k, q)`. -/
theorem lift_rows {m n : ℕ} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- A float sum along the first axis from the zero pattern, read at column `q`, is the sum of that column's entries
    on the extended reals. -/
theorem colSum_apply {m n : ℕ} (src : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (q : Fin n) :
    multiReduction .add [0] (⟨1, ![n]⟩ : Shape) src 0x00000000#32 h hφ hacc (ix1 q) = ∑ k : Fin m, src (ix2 k q) := by
  refine (Ideal.multiReduction_add_single src 0x00000000#32 h hφ hacc (ix1 q)).trans ?_
  exact Finset.sum_congr rfl fun k _ => congrArg src (lift_rows h q k)

/-- The indices of an `[n]` vector are the numbers below `n`. -/
def idxEquiv1 {n : ℕ} : Fin n ≃ (⟨1, ![n]⟩ : Shape).Idx where
  toFun := ix1
  invFun j := j 0
  left_inv _ := rfl
  right_inv j := (eq_ix1 j).symm

/-- A sum over the indices of an `[n]` vector is the sum over `Fin n`. -/
theorem sum_idx1 {M : Type*} [AddCommMonoid M] {n : ℕ} (f : (⟨1, ![n]⟩ : Shape).Idx → M) :
    ∑ j : (⟨1, ![n]⟩ : Shape).Idx, f j = ∑ k : Fin n, f (ix1 k) :=
  (Equiv.sum_comp idxEquiv1 f).symm

end Cert.LibColumnSum

end
-- ==== Proof.ReferenceLoss.lean ====
/-
  The reference computes the specification's loss of its two reshaped arguments.

  Its host program is read one operation at a time. The five row totals are host sums along the second axis from a zero
  initial value: zero plus the sum over the row's cells of a cell term, and each cell term is the specification's — the
  foreground indicator is the comparison's bit read as a number, the sigmoid is written out as 1 / (1 + exp(-x)), which is
  the logistic function, the exponential's argument is the negated absolute value. The finish is the same arithmetic on
  [64] vectors that the specification states on functions of the row, with its two sums over the 64 rows started from zero.
-/
import proofs.«100224_j16965120819239_1_alg».proof.Proof.RefRead
import proofs.«100224_j16965120819239_1_alg».proof.Proof.LossSpec
import proofs.«100224_j16965120819239_1_alg».proof.Proof.LibColumnSum

noncomputable section

open scoped BigOperators
open Idealize.ShloMosaic Idealize.ShloMosaic.ValueIdx

namespace Cert.ReferenceIdeal.RefLoss

open Cert.ReferenceIdeal Cert.ReferenceIdeal.ReadP Cert.Loss

/-- The word of 1.0 is the number one. -/
theorem lit_one : lit 0x3F800000#32 = 1 := by
  simp [lit, Ideal.ofBits, Ideal.ieee, -EReal.coe_mul]; norm_num

/-- The sigmoid written out is the logistic function. -/
theorem sigmoid_eq (x : EReal) : Ideal.div (lit 0x3F800000#32) (lit 0x3F800000#32 + Ideal.exp (-x)) = Ideal.logistic x := by
  rw [lit_one]; rfl

/-- The zero word plus a number is that number. -/
theorem zero_lit_add (a : EReal) : lit 0x00000000#32 + a = a := by
  rw [show lit 0x00000000#32 = 0 from Ideal.ofBits_zero_f32, zero_add]

variable (x0 x1 : (⟨S64x1x512x512, .f32⟩ : BufTy).Contents (Elt Ideal))

/-- The reshaped logits and targets. -/
abbrev X : Arr := val_main_v0 (F := Ideal) x0
abbrev T : Arr := val_main_v1 (F := Ideal) x1

/-- The index of cell `k` of row `b`, as each host sum names it. -/
theorem row5 (b : Fin 64) (k : Fin 262144) : idx_main_v5 (ix1 b) k = ix2 b k :=
  funext fun a => Fin.ext (by match a with | ⟨0, _⟩ => rfl | ⟨1, _⟩ => rfl)
theorem row26 (b : Fin 64) (k : Fin 262144) : idx_main_v26 (ix1 b) k = ix2 b k :=
  funext fun a => Fin.ext (by match a with | ⟨0, _⟩ => rfl | ⟨1, _⟩ => rfl)
theorem row36 (b : Fin 64) (k : Fin 262144) : idx_main_v36 (ix1 b) k = ix2 b k :=
  funext fun a => Fin.ext (by match a with | ⟨0, _⟩ => rfl | ⟨1, _⟩ => rfl)
theorem row37 (b : Fin 64) (k : Fin 262144) : idx_main_v37 (ix1 b) k = ix2 b k :=
  funext fun a => Fin.ext (by match a with | ⟨0, _⟩ => rfl | ⟨1, _⟩ => rfl)
theorem row38 (b : Fin 64) (k : Fin 262144) : idx_main_v38 (ix1 b) k = ix2 b k :=
  funext fun a => Fin.ext (by match a with | ⟨0, _⟩ => rfl | ⟨1, _⟩ => rfl)

/-! ## The five row totals -/

theorem fg_total (b : Fin 64) : val_main_v5 (F := Ideal) x1 (ix1 b) = rowTotal fgTerm (X x0) (T x1) b := by
  rw [val_main_v5_apply]
  refine (zero_lit_add _).trans (Finset.sum_congr rfl fun k _ => ?_)
  rw [row5]
  simp only [val_main_v4_apply, val_main_v3_apply, val_main_v2_apply, val_main_cst_apply]
  rfl

theorem wbce_total (b : Fin 64) : val_main_v26 (F := Ideal) x0 x1 (ix1 b) = rowTotal wbceTerm (X x0) (T x1) b := by
  rw [val_main_v26_apply]
  refine (zero_lit_add _).trans (Finset.sum_congr rfl fun k _ => ?_)
  rw [row26]
  simp only [val_main_v25_apply, val_main_v24_apply, val_main_v23_apply, val_main_cst_6_apply, val_main_v22_apply,
    val_main_v21_apply, val_main_cst_5_apply, val_main_v20_apply, val_main_v19_apply, val_main_cst_4_apply,
    val_main_v18_apply, val_main_v17_apply, val_main_v16_apply, val_main_v15_apply, val_main_v14_apply,
    val_main_v13_apply, val_main_v12_apply, val_main_v11_apply, val_main_v10_apply, val_main_cst_3_apply]
  rfl

theorem pt_total (b : Fin 64) : val_main_v36 (F := Ideal) x0 x1 (ix1 b) = rowTotal ptTerm (X x0) (T x1) b := by
  rw [val_main_v36_apply]
  refine (zero_lit_add _).trans (Finset.sum_congr rfl fun k _ => ?_)
  rw [row36]
  simp only [val_main_v35_apply, val_main_v34_apply, val_main_v33_apply, val_main_cst_10_apply, val_main_v32_apply,
    val_main_v31_apply, val_main_cst_9_apply, val_main_v30_apply, val_main_v29_apply]
  exact congrArg (· * _) (sigmoid_eq _)

theorem p_total (b : Fin 64) : val_main_v37 (F := Ideal) x0 (ix1 b) = rowTotal pTerm (X x0) (T x1) b := by
  rw [val_main_v37_apply]
  refine (zero_lit_add _).trans (Finset.sum_congr rfl fun k _ => ?_)
  rw [row37]
  simp only [val_main_v34_apply, val_main_v33_apply, val_main_cst_10_apply, val_main_v32_apply,
    val_main_v31_apply, val_main_cst_9_apply, val_main_v30_apply, val_main_v29_apply]
  exact sigmoid_eq _

theorem t_total (b : Fin 64) : val_main_v38 (F := Ideal) x1 (ix1 b) = rowTotal tTerm (X x0) (T x1) b := by
  rw [val_main_v38_apply]
  refine (zero_lit_add _).trans (Finset.sum_congr rfl fun k _ => ?_)
  rw [row38]
  rfl

/-! ## The finish -/

/-- The host's finish over its five [64] vectors is the specification's total of them read at each row. -/
theorem finish_eq :
    val_main_v61 (F := Ideal) x0 x1 ix0
      = total (fun r => val_main_v5 (F := Ideal) x1 (ix1 r)) (fun r => val_main_v26 (F := Ideal) x0 x1 (ix1 r))
          (fun r => val_main_v36 (F := Ideal) x0 x1 (ix1 r)) (fun r => val_main_v37 (F := Ideal) x0 (ix1 r))
          (fun r => val_main_v38 (F := Ideal) x1 (ix1 r)) := by
  have hn : val_main_v55 (F := Ideal) x1 ix0 = nValid (fun r => val_main_v5 (F := Ideal) x1 (ix1 r)) := by
    rw [val_main_v55_apply]
    refine (zero_lit_add _).trans ((Cert.LibColumnSum.sum_idx1 _).trans (Finset.sum_congr rfl fun r _ => ?_))
    simp only [val_main_v54_apply, val_main_v9_apply, val_main_v8_apply, val_main_cst_2_apply, val_main_v7_apply,
      val_main_v6_apply, val_main_cst_1_apply]
    rfl
  have hs : val_main_v57 (F := Ideal) x0 x1 ix0
      = sumValid (fun r => val_main_v5 (F := Ideal) x1 (ix1 r)) (fun r => val_main_v26 (F := Ideal) x0 x1 (ix1 r))
          (fun r => val_main_v36 (F := Ideal) x0 x1 (ix1 r)) (fun r => val_main_v37 (F := Ideal) x0 (ix1 r))
          (fun r => val_main_v38 (F := Ideal) x1 (ix1 r)) := by
    rw [val_main_v57_apply]
    refine (zero_lit_add _).trans ((Cert.LibColumnSum.sum_idx1 _).trans (Finset.sum_congr rfl fun r _ => ?_))
    simp only [val_main_v56_apply, val_main_call0_v1_apply, val_main_call0_v0_apply, val_main_cst_21_apply,
      val_main_v53_apply, val_main_v52_apply, val_main_v51_apply, val_main_cst_19_apply, val_main_v50_apply,
      val_main_v49_apply, val_main_cst_18_apply, val_main_v48_apply, val_main_v47_apply, val_main_cst_17_apply,
      val_main_v46_apply, val_main_v45_apply, val_main_v44_apply, val_main_cst_16_apply, val_main_v43_apply,
      val_main_v42_apply, val_main_cst_15_apply, val_main_v41_apply, val_main_v40_apply, val_main_cst_14_apply,
      val_main_v39_apply, val_main_v28_apply, val_main_v27_apply, val_main_cst_8_apply,
      val_main_v9_apply, val_main_v8_apply, val_main_cst_2_apply, val_main_v7_apply, val_main_v6_apply,
      val_main_cst_1_apply]
    rfl
  rw [val_main_v61_apply, val_main_v58_apply, val_main_v60_apply, val_main_v59_apply, val_main_call1_v0_apply,
    val_main_cst_25_apply, val_main_cst_24_apply, val_main_cst_23_apply, hn, hs]
  rfl

/-- The reference's result is the loss of its reshaped arguments. -/
theorem result_eq : val_main_v61 (F := Ideal) x0 x1 ix0 = loss (X x0) (T x1) := by
  rw [finish_eq]
  unfold loss
  rw [funext (fg_total x0 x1), funext (wbce_total x0 x1), funext (pt_total x0 x1), funext (p_total x0 x1),
    funext (t_total x0 x1)]

end Cert.ReferenceIdeal.RefLoss

end
-- ==== Proof.CasePieces.lean ====
/-
  What one grid point's body leaves behind, case by case.

  The kernel walks the 64 column blocks of the [64, 262144] logits and targets. It keeps five columns [64, 1] of running
  row sums: the foreground count, the weighted cross-entropy, sigmoid * target, sigmoid, and target. At every point each
  column becomes "what it held + the row sums of this block's terms"; at the first point what it held is the zero column
  it has just stored; at the last point the five finished columns are turned into the one number of the loss and stored
  into the [1, 1] output. Here each of these is read off the stores the body makes: a column's single covering store
  (first point: the zero store and then the covering store, which reads the zero back) is the column's new contents,
  and the loads those stores depend on read whole buffers.
-/
import proofs.«100224_j16965120819239_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Cols

open Cert.KernelIdeal Cert.KernelIdeal.Gen

variable {F : FTy → Type} [FloatOps F]

theorem hz : (![0, 0] : Fin 2 → Nat) = fun _ => 0 := funext fun a => by fin_cases a <;> rfl

/-! ## The five updates, the zero column, the finish -/

/-- A column of running row sums after one more block (logits `x0`, targets `x1`): the column `a` plus the block's
    row sums of the number of foreground cells (target above one half). -/
def addFg (x0 x1 : Vec F S64x4096 .f32) (a : Vec F S64x1 .f32) : Vec F S64x1 .f32 := k0_pay19 x1 a

/-- A column of running row sums after one more block (logits `x0`, targets `x1`): the column `a` plus the block's
    row sums of the weighted cross-entropy terms. -/
def addWbce (x0 x1 : Vec F S64x4096 .f32) (a : Vec F S64x1 .f32) : Vec F S64x1 .f32 := k0_pay1 (k0_pay17 x0 x1) a

/-- A column of running row sums after one more block (logits `x0`, targets `x1`): the column `a` plus the block's
    row sums of the products sigmoid(logit) * target. -/
def addPt (x0 x1 : Vec F S64x4096 .f32) (a : Vec F S64x1 .f32) : Vec F S64x1 .f32 := k0_pay2 (k0_pay16 x1) (k0_pay18 x0) a

/-- A column of running row sums after one more block (logits `x0`, targets `x1`): the column `a` plus the block's
    row sums of the sigmoids of the logits. -/
def addP (x0 x1 : Vec F S64x4096 .f32) (a : Vec F S64x1 .f32) : Vec F S64x1 .f32 := k0_pay3 (k0_pay18 x0) a

/-- A column of running row sums after one more block (logits `x0`, targets `x1`): the column `a` plus the block's
    row sums of the targets. -/
def addT (x0 x1 : Vec F S64x4096 .f32) (a : Vec F S64x1 .f32) : Vec F S64x1 .f32 := k0_pay4 (k0_pay16 x1) a

/-- The zero column the first point stores into each of the five before it adds to them. -/
def zeroCol : Vec F S64x1 .f32 := k0_pay10

/-- The loss from the five finished columns: the mean over the valid rows (foreground share below the threshold) of
    0.6 * mean weighted cross-entropy + 0.4 * dice loss, or zero when no row is valid; a [1, 1] array. -/
def finish (sFg sWbce sPt sP sT : Vec F S64x1 .f32) : Vec F S1x1 .f32 :=
  k0_pay5 (k0_pay7 sFg) (k0_pay8 sFg sWbce sP sT sPt) (k0_pay9 sFg) (FloatOps.ofBits .f32 0x3F800000#32)

/-! ## The cases -/

section
variable (c : Dev nD) (i : grid0.Coords)
  (a1 : Memref sig .tc .vmem S64x4096 .f32) (h1 : a1.IsWhole) (a2 : Memref sig .tc .vmem S64x4096 .f32) (h2 : a2.IsWhole)
  (a3 : Memref sig .tc .vmem S1x1 .f32) (h3 : a3.IsWhole)
  (a4 : Memref sig .tc .vmem S64x1 .f32) (h4 : a4.IsWhole) (a5 : Memref sig .tc .vmem S64x1 .f32) (h5 : a5.IsWhole)
  (a6 : Memref sig .tc .vmem S64x1 .f32) (h6 : a6.IsWhole) (a7 : Memref sig .tc .vmem S64x1 .f32) (h7 : a7.IsWhole)
  (a8 : Memref sig .tc .vmem S64x1 .f32) (h8 : a8.IsWhole)
  (x0 x1 : Vec F S64x4096 .f32) (xs0 xs1 xs2 xs3 xs4 : Vec F S64x1 .f32)

/-- First point: column 0 ends at the zero column plus the block's row sums. -/
theorem first_Fg (hc0 : cond0_0 i) (hc1 : ¬cond0_1 i) :
    sout0_A_0 c i a1 h1 a2 h2 a3 h3 a4 h4 a5 h5 a6 h6 a7 h7 a8 h8 hc0 hc1 x0 x1 = addFg x0 x1 (zeroCol (F := F)) := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  rw [View.canon_cons_unit_zero (S := S64x1) hz, View.readCov_unit_zero (S := S64x1) _ hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- First point: column 1 ends at the zero column plus the block's row sums. -/
theorem first_Wbce (hc0 : cond0_0 i) (hc1 : ¬cond0_1 i) :
    sout0_A_1 c i a1 h1 a2 h2 a3 h3 a4 h4 a5 h5 a6 h6 a7 h7 a8 h8 hc0 hc1 x0 x1 = addWbce x0 x1 (zeroCol (F := F)) := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  rw [View.canon_cons_unit_zero (S := S64x1) hz, View.readCov_unit_zero (S := S64x1) _ hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- First point: column 2 ends at the zero column plus the block's row sums. -/
theorem first_Pt (hc0 : cond0_0 i) (hc1 : ¬cond0_1 i) :
    sout0_A_2 c i a1 h1 a2 h2 a3 h3 a4 h4 a5 h5 a6 h6 a7 h7 a8 h8 hc0 hc1 x0 x1 = addPt x0 x1 (zeroCol (F := F)) := by
  unfold sout0_A_2
  rw [View.read_writes_eq_canon _ _ _ (scover0_A_2 c i a1 h1 a2 h2 a3 h3 a4 h4 a5 h5 a6 h6 a7 h7 a8 h8 hc0 hc1 x0 x1)]
  unfold kernelRun0_A
  dsimp only
  sl_unfold_words
  rw [View.canon_cons_unit_zero (S := S64x1) hz, View.readCov_unit_zero (S := S64x1) _ hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- First point: column 3 ends at the zero column plus the block's row sums. -/
theorem first_P (hc0 : cond0_0 i) (hc1 : ¬cond0_1 i) :
    sout0_A_3 c i a1 h1 a2 h2 a3 h3 a4 h4 a5 h5 a6 h6 a7 h7 a8 h8 hc0 hc1 x0 x1 = addP x0 x1 (zeroCol (F := F)) := by
  unfold sout0_A_3
  rw [View.read_writes_eq_canon _ _ _ (scover0_A_3 c i a1 h1 a2 h2 a3 h3 a4 h4 a5 h5 a6 h6 a7 h7 a8 h8 hc0 hc1 x0 x1)]
  unfold kernelRun0_A
  dsimp only
  sl_unfold_words
  rw [View.canon_cons_unit_zero (S := S64x1) hz, View.readCov_unit_zero (S := S64x1) _ hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- First point: column 4 ends at the zero column plus the block's row sums. -/
theorem first_T (hc0 : cond0_0 i) (hc1 : ¬cond0_1 i) :
    sout0_A_4 c i a1 h1 a2 h2 a3 h3 a4 h4 a5 h5 a6 h6 a7 h7 a8 h8 hc0 hc1 x0 x1 = addT x0 x1 (zeroCol (F := F)) := by
  unfold sout0_A_4
  rw [View.read_writes_eq_canon _ _ _ (scover0_A_4 c i a1 h1 a2 h2 a3 h3 a4 h4 a5 h5 a6 h6 a7 h7 a8 h8 hc0 hc1 x0 x1)]
  unfold kernelRun0_A
  dsimp only
  sl_unfold_words
  rw [View.canon_cons_unit_zero (S := S64x1) hz, View.readCov_unit_zero (S := S64x1) _ hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- A point between the first and the last: column 0 ends at what it held plus the block's row sums. -/
theorem middle_Fg (hc0 : ¬cond0_0 i) (hc1 : ¬cond0_1 i) :
    sout0_B_0 c i a1 h1 a2 h2 a3 h3 a4 h4 a5 h5 a6 h6 a7 h7 a8 h8 hc0 hc1 x0 x1 xs0 xs1 xs2 xs3 xs4 = addFg x0 x1 xs0 := by
  unfold sout0_B_0
  rw [View.read_writes_eq_canon _ _ _ (scover0_B_0 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- A point between the first and the last: column 1 ends at what it held plus the block's row sums. -/
theorem middle_Wbce (hc0 : ¬cond0_0 i) (hc1 : ¬cond0_1 i) :
    sout0_B_1 c i a1 h1 a2 h2 a3 h3 a4 h4 a5 h5 a6 h6 a7 h7 a8 h8 hc0 hc1 x0 x1 xs0 xs1 xs2 xs3 xs4 = addWbce x0 x1 xs1 := by
  unfold sout0_B_1
  rw [View.read_writes_eq_canon _ _ _ (scover0_B_1 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- A point between the first and the last: column 2 ends at what it held plus the block's row sums. -/
theorem middle_Pt (hc0 : ¬cond0_0 i) (hc1 : ¬cond0_1 i) :
    sout0_B_2 c i a1 h1 a2 h2 a3 h3 a4 h4 a5 h5 a6 h6 a7 h7 a8 h8 hc0 hc1 x0 x1 xs0 xs1 xs2 xs3 xs4 = addPt x0 x1 xs2 := by
  unfold sout0_B_2
  rw [View.read_writes_eq_canon _ _ _ (scover0_B_2 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- A point between the first and the last: column 3 ends at what it held plus the block's row sums. -/
theorem middle_P (hc0 : ¬cond0_0 i) (hc1 : ¬cond0_1 i) :
    sout0_B_3 c i a1 h1 a2 h2 a3 h3 a4 h4 a5 h5 a6 h6 a7 h7 a8 h8 hc0 hc1 x0 x1 xs0 xs1 xs2 xs3 xs4 = addP x0 x1 xs3 := by
  unfold sout0_B_3
  rw [View.read_writes_eq_canon _ _ _ (scover0_B_3 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- A point between the first and the last: column 4 ends at what it held plus the block's row sums. -/
theorem middle_T (hc0 : ¬cond0_0 i) (hc1 : ¬cond0_1 i) :
    sout0_B_4 c i a1 h1 a2 h2 a3 h3 a4 h4 a5 h5 a6 h6 a7 h7 a8 h8 hc0 hc1 x0 x1 xs0 xs1 xs2 xs3 xs4 = addT x0 x1 xs4 := by
  unfold sout0_B_4
  rw [View.read_writes_eq_canon _ _ _ (scover0_B_4 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- The last point: column 0 ends at what it held plus the block's row sums. -/
theorem last_Fg (hc0 : ¬cond0_0 i) (hc1 : cond0_1 i) :
    sout0_C_0 c i a1 h1 a2 h2 a3 h3 a4 h4 a5 h5 a6 h6 a7 h7 a8 h8 hc0 hc1 x0 x1 xs0 xs1 xs2 xs3 xs4 = addFg x0 x1 xs0 := by
  unfold sout0_C_0
  rw [View.read_writes_eq_canon _ _ _ (scover0_C_0 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- The last point: column 1 ends at what it held plus the block's row sums. -/
theorem last_Wbce (hc0 : ¬cond0_0 i) (hc1 : cond0_1 i) :
    sout0_C_1 c i a1 h1 a2 h2 a3 h3 a4 h4 a5 h5 a6 h6 a7 h7 a8 h8 hc0 hc1 x0 x1 xs0 xs1 xs2 xs3 xs4 = addWbce x0 x1 xs1 := by
  unfold sout0_C_1
  rw [View.read_writes_eq_canon _ _ _ (scover0_C_1 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- The last point: column 2 ends at what it held plus the block's row sums. -/
theorem last_Pt (hc0 : ¬cond0_0 i) (hc1 : cond0_1 i) :
    sout0_C_2 c i a1 h1 a2 h2 a3 h3 a4 h4 a5 h5 a6 h6 a7 h7 a8 h8 hc0 hc1 x0 x1 xs0 xs1 xs2 xs3 xs4 = addPt x0 x1 xs2 := by
  unfold sout0_C_2
  rw [View.read_writes_eq_canon _ _ _ (scover0_C_2 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- The last point: column 3 ends at what it held plus the block's row sums. -/
theorem last_P (hc0 : ¬cond0_0 i) (hc1 : cond0_1 i) :
    sout0_C_3 c i a1 h1 a2 h2 a3 h3 a4 h4 a5 h5 a6 h6 a7 h7 a8 h8 hc0 hc1 x0 x1 xs0 xs1 xs2 xs3 xs4 = addP x0 x1 xs3 := by
  unfold sout0_C_3
  rw [View.read_writes_eq_canon _ _ _ (scover0_C_3 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- The last point: column 4 ends at what it held plus the block's row sums. -/
theorem last_T (hc0 : ¬cond0_0 i) (hc1 : cond0_1 i) :
    sout0_C_4 c i a1 h1 a2 h2 a3 h3 a4 h4 a5 h5 a6 h6 a7 h7 a8 h8 hc0 hc1 x0 x1 xs0 xs1 xs2 xs3 xs4 = addT x0 x1 xs4 := by
  unfold sout0_C_4
  rw [View.read_writes_eq_canon _ _ _ (scover0_C_4 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

/-- The last point stores, into the output block, the finish of the five columns as it has just updated them: the loads
    the finish reads are covered by this point's own stores. -/
theorem last_out (hc0 : ¬cond0_0 i) (hc1 : cond0_1 i) :
    out0_C_2 c i a1 h1 a2 h2 a3 h3 a4 h4 a5 h5 a6 h6 a7 h7 a8 h8 hc0 hc1 x0 x1 xs0 xs1 xs2 xs3 xs4
      = finish (addFg x0 x1 xs0) (addWbce x0 x1 xs1) (addPt x0 x1 xs2) (addP x0 x1 xs3) (addT x0 x1 xs4) := by
  unfold out0_C_2
  rw [View.read_writes_eq_canon _ _ _ (cover0_C_2 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readCov_unit_zero (S := S64x1) _ hz, View.readAt_eq_ld, h1.read_unread, h2.read_unread, h3.read_unread, h4.read_unread, h5.read_unread, h6.read_unread, h7.read_unread, h8.read_unread, View.ld_unit_zero (S := S64x4096) hz, View.ld_unit_zero (S := S64x1) hz, View.ld_unit_zero (S := S1x1) hz]
  rfl

end

end Cert.KernelIdeal.Cols

end
-- ==== Proof.ColumnRun.lean ====
/-
  The five columns of running row sums, point by point.

  After the first point each column is the zero column plus the first block's row sums; after every later point it is
  what the point before left plus that point's block's row sums. This is a recursion on the point, and it is what the
  body leaves in the five carried buffers (by induction on the point, never by listing the 64 points). At the last
  point the output block receives the finish of the five columns as they stand after that point.
-/
import proofs.«100224_j16965120819239_1_alg».proof.Proof.CasePieces

set_option maxRecDepth 16384

noncomputable section

open Idealize.ShloMosaic Idealize.ShloMosaic.TcCoe Idealize.SL.Sem

namespace Cert.KernelIdeal.Cols

open Cert.KernelIdeal Cert.KernelIdeal.Gen

variable {F : FTy → Type} [FloatOps F]
variable (m : (ℓ : Loc nD τ sig) → Buf (Elt F) ℓ)

/-- Five equal components make equal 5-tuples. -/
theorem tuple5 {α β γ δ ε : Type} {a a' : α} {b b' : β} {c c' : γ} {d d' : δ} {e e' : ε}
    (ha : a = a') (hb : b = b') (hc : c = c') (hd : d = d') (he : e = e') :
    (a, b, c, d, e) = (a', b', c', d', e') := by
  subst ha hb hc hd he; rfl

/-- The type of the five columns together. -/
abbrev Five (F : FTy → Type) : Type :=
  Vec F S64x1 .f32 × Vec F S64x1 .f32 × Vec F S64x1 .f32 × Vec F S64x1 .f32 × Vec F S64x1 .f32

/-- One more block (logits `x0`, targets `x1`) added into the five columns. -/
def addAll (x0 x1 : Vec F S64x4096 .f32) (s : Five F) : Five F :=
  (addFg x0 x1 s.1, addWbce x0 x1 s.2.1, addPt x0 x1 s.2.2.1, addP x0 x1 s.2.2.2.1, addT x0 x1 s.2.2.2.2)

/-- The five zero columns. -/
def zeroAll : Five F := (zeroCol, zeroCol, zeroCol, zeroCol, zeroCol)

/-- The finish of five columns. -/
def finishAll (s : Five F) : Vec F S1x1 .f32 := finish s.1 s.2.1 s.2.2.1 s.2.2.2.1 s.2.2.2.2

/-! ## One point -/

/-- The first point: the zero columns plus the first block. -/
theorem step_first (c : Dev nD) (t : Fin cfg0.N) (h0 : t.val % 64 = 0) (h1 : ¬t.val % 64 = 63) :
    (outsAt0 m c t.val t.isLt).2 = addAll (iblk m c 0 t) (iblk m c 1 t) zeroAll := by
  rw [outsAt0_A m c t h0 h1]
  exact tuple5
    (first_Fg c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) ((hcond0_0 t).mpr h0) (fun h => h1 ((hcond0_1 t).mp h)))
    (first_Wbce c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) ((hcond0_0 t).mpr h0) (fun h => h1 ((hcond0_1 t).mp h)))
    (first_Pt c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) ((hcond0_0 t).mpr h0) (fun h => h1 ((hcond0_1 t).mp h)))
    (first_P c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) ((hcond0_0 t).mpr h0) (fun h => h1 ((hcond0_1 t).mp h)))
    (first_T c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) ((hcond0_0 t).mpr h0) (fun h => h1 ((hcond0_1 t).mp h)))

/-- A point that is neither first nor last: what the point before left plus this block. -/
theorem step_middle (c : Dev nD) (t : Fin cfg0.N) (h0 : ¬t.val % 64 = 0) (h1 : ¬t.val % 64 = 63) :
    (outsAt0 m c t.val t.isLt).2 = addAll (iblk m c 0 t) (iblk m c 1 t) (outsAt0 m c (t.val - 1) (Nat.lt_of_le_of_lt (Nat.sub_le _ _) t.isLt)).2 := by
  rw [outsAt0_B m c t h0 h1]
  exact tuple5
    (middle_Fg c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
    (middle_Wbce c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
    (middle_Pt c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
    (middle_P c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
    (middle_T c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))

/-- The last point: the same for the five columns, -/
theorem step_last (c : Dev nD) (t : Fin cfg0.N) (h0 : ¬t.val % 64 = 0) (h1 : t.val % 64 = 63) :
    (outsAt0 m c t.val t.isLt).2 = addAll (iblk m c 0 t) (iblk m c 1 t) (outsAt0 m c (t.val - 1) (Nat.lt_of_le_of_lt (Nat.sub_le _ _) t.isLt)).2 := by
  rw [outsAt0_C m c t h0 h1]
  exact tuple5
    (last_Fg c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
    (last_Wbce c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
    (last_Pt c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
    (last_P c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
    (last_T c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))

/-- and the output block receives the finish of the five columns as that point leaves them. -/
theorem step_last_out (c : Dev nD) (t : Fin cfg0.N) (h0 : ¬t.val % 64 = 0) (h1 : t.val % 64 = 63) :
    (outsAt0 m c t.val t.isLt).1 = finishAll (addAll (iblk m c 0 t) (iblk m c 1 t) (outsAt0 m c (t.val - 1) (Nat.lt_of_le_of_lt (Nat.sub_le _ _) t.isLt)).2) := by
  rw [outsAt0_C m c t h0 h1]
  exact last_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-! ## All points -/

/-- The five columns after point `n`: the zero columns with the blocks of points 0 .. n added one after the other. -/
def cols (c : Dev nD) : (n : ℕ) → n < cfg0.N → Five F
  | 0, h => addAll (iblk m c 0 ⟨0, h⟩) (iblk m c 1 ⟨0, h⟩) zeroAll
  | n + 1, h => addAll (iblk m c 0 ⟨n + 1, h⟩) (iblk m c 1 ⟨n + 1, h⟩) (cols c n (Nat.lt_of_succ_lt h))

/-- What the body leaves in the five carried buffers after point `n` is `cols` at `n`. -/
theorem carried_eq (c : Dev nD) : ∀ (n : ℕ) (h : n < cfg0.N), (outsAt0 m c n h).2 = cols m c n h
  | 0, h => step_first m c ⟨0, h⟩ rfl (by show ¬(0 % 64 = 63); decide)
  | n + 1, h => by
    have hN : cfg0.N = 64 := N_0
    have h0 : ¬(⟨n + 1, h⟩ : Fin cfg0.N).val % 64 = 0 := by dsimp only; omega
    have ih := carried_eq c n (Nat.lt_of_succ_lt h)
    by_cases h1 : (⟨n + 1, h⟩ : Fin cfg0.N).val % 64 = 63
    · refine (step_last m c ⟨n + 1, h⟩ h0 h1).trans ?_
      show addAll _ _ (outsAt0 m c n _).2 = addAll _ _ (cols m c n _)
      rw [ih]
    · refine (step_middle m c ⟨n + 1, h⟩ h0 h1).trans ?_
      show addAll _ _ (outsAt0 m c n _).2 = addAll _ _ (cols m c n _)
      rw [ih]

/-- The output's staging buffer after the last point holds the finish of the five columns after the last point. -/
theorem out_eq (c : Dev nD) (n : ℕ) (h : n + 1 < cfg0.N) (h1 : (n + 1) % 64 = 63) :
    (outsAt0 m c (n + 1) h).1 = finishAll (cols m c (n + 1) h) := by
  have hN : cfg0.N = 64 := N_0
  have h0 : ¬(⟨n + 1, h⟩ : Fin cfg0.N).val % 64 = 0 := by dsimp only; omega
  refine (step_last_out m c ⟨n + 1, h⟩ h0 h1).trans ?_
  show finishAll (addAll _ _ (outsAt0 m c n _).2) = finishAll (addAll _ _ (cols m c n _))
  rw [carried_eq m c n (Nat.lt_of_succ_lt h)]

end Cert.KernelIdeal.Cols

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.ColumnValues.lean ====
/-
  The kernel's column updates and its finish, read at an entry on the extended reals.

  One more block added into a column: entry (b, u) becomes what it held plus the sum over the block's 4096 cells of row b
  of the cell term — the row sums are taken along the block's second axis from zero and kept as a column. The cell
  terms are the specification's: the foreground indicator arrives as the one-bit comparison widened to 32 bits and read
  signed, which is the number 0 or 1; the exponential's argument arrives as zero minus |x|, which is -|x|; the other
  operations are the same on both sides. The finish at (0, 0) is the specification's total of the five columns read at
  their entries (b, 0): its two sums run down the 64 rows of a [64, 1] column.
-/
import proofs.«100224_j16965120819239_1_alg».proof.Proof.CasePieces
import proofs.«100224_j16965120819239_1_alg».proof.Proof.LossSpec
import proofs.«100224_j16965120819239_1_alg».proof.Proof.LibKeepdims
import proofs.«100224_j16965120819239_1_alg».proof.Proof.LibColumnSum

noncomputable section

open scoped BigOperators
open Idealize.ShloMosaic Idealize.ShloMosaic.ValueIdx

namespace Cert.KernelIdeal.Cols

open Cert.KernelIdeal Cert.KernelIdeal.Gen Cert.Loss

/-- The zero word minus a number is its negative. -/
theorem zero_lit_sub (a : EReal) : lit 0x00000000#32 - a = -a := by
  rw [show lit 0x00000000#32 = 0 from Ideal.ofBits_zero_f32, zero_sub]

/-- The row sums of a [64, 4096] block kept as a [64, 1] column, read at (b, u): the sum of row b. -/
theorem rowsCol_apply (v : FVec Ideal S64x4096 .f32) (b : Fin 64) (u : Fin 1) :
    shapeCast S64x1 (multiReduction .add [1] S64 v 0x00000000#32 reduces_S64x4096_S64 (.inl rfl) rfl) shapeCasts_S64_S64x1 (ix2 b u)
      = ∑ l : Fin 4096, v (ix2 b l) :=
  (Cert.LibKeepdims.shapeCast_a_a1_apply _ shapeCasts_S64_S64x1 b u).trans
    (Cert.LibKeepdims.rowSum_apply v reduces_S64x4096_S64 (.inl rfl) rfl b)

/-- The zero column holds zero. -/
theorem zeroCol_apply (b : Fin 64) (u : Fin 1) : zeroCol (F := Ideal) (ix2 b u) = 0 := by
  unfold zeroCol k0_pay10
  simp only [shapeCast_self]
  exact Ideal.ofBits_zero_f32

variable (x0 x1 : Vec Ideal S64x4096 .f32) (a : Vec Ideal S64x1 .f32) (b : Fin 64) (u : Fin 1)

/-- The foreground count after one more block. -/
theorem addFg_apply : addFg x0 x1 a (ix2 b u) = a (ix2 b u) + ∑ l : Fin 4096, fgTerm (x0 (ix2 b l)) (x1 (ix2 b l)) := by
  unfold addFg k0_pay19
  simp only [k0_pay16, shapeCast_self]
  show a (ix2 b u) + _ = _
  refine congrArg (a (ix2 b u) + ·) ((rowsCol_apply _ b u).trans (Finset.sum_congr rfl fun l _ => ?_))
  exact toInt_setWidth _

/-- The weighted cross-entropy after one more block. -/
theorem addWbce_apply : addWbce x0 x1 a (ix2 b u) = a (ix2 b u) + ∑ l : Fin 4096, wbceTerm (x0 (ix2 b l)) (x1 (ix2 b l)) := by
  unfold addWbce k0_pay1 k0_pay17
  simp only [k0_pay15, k0_pay16, shapeCast_self]
  show a (ix2 b u) + _ = _
  refine congrArg (a (ix2 b u) + ·) ((rowsCol_apply _ b u).trans (Finset.sum_congr rfl fun l _ => ?_))
  show (max (x0 (ix2 b l)) (lit 0x00000000#32) - x0 (ix2 b l) * x1 (ix2 b l)
      + Ideal.log1p (Ideal.exp (lit 0x00000000#32 - max (x0 (ix2 b l)) (-(x0 (ix2 b l))))))
      * min (lit 0x3F800000#32 + lit 0x41200000#32 * x1 (ix2 b l)) (lit 0x41A00000#32) = _
  rw [zero_lit_sub]
  rfl

/-- The intersection after one more block. -/
theorem addPt_apply : addPt x0 x1 a (ix2 b u) = a (ix2 b u) + ∑ l : Fin 4096, ptTerm (x0 (ix2 b l)) (x1 (ix2 b l)) := by
  unfold addPt k0_pay2 k0_pay18
  simp only [k0_pay15, k0_pay16, shapeCast_self]
  show a (ix2 b u) + _ = _
  exact congrArg (a (ix2 b u) + ·) ((rowsCol_apply _ b u).trans (Finset.sum_congr rfl fun l _ => rfl))

/-- The prediction mass after one more block. -/
theorem addP_apply : addP x0 x1 a (ix2 b u) = a (ix2 b u) + ∑ l : Fin 4096, pTerm (x0 (ix2 b l)) (x1 (ix2 b l)) := by
  unfold addP k0_pay3 k0_pay18
  simp only [k0_pay15, shapeCast_self]
  show a (ix2 b u) + _ = _
  exact congrArg (a (ix2 b u) + ·) ((rowsCol_apply _ b u).trans (Finset.sum_congr rfl fun l _ => rfl))

/-- The target mass after one more block. -/
theorem addT_apply : addT x0 x1 a (ix2 b u) = a (ix2 b u) + ∑ l : Fin 4096, tTerm (x0 (ix2 b l)) (x1 (ix2 b l)) := by
  unfold addT k0_pay4
  simp only [k0_pay16, shapeCast_self]
  show a (ix2 b u) + _ = _
  exact congrArg (a (ix2 b u) + ·) ((rowsCol_apply _ b u).trans (Finset.sum_congr rfl fun l _ => rfl))

/-- A column's entries (b, 0) as a function of the row. -/
abbrev col (s : Vec Ideal S64x1 .f32) : Fin 64 → EReal := fun r => s (ix2 r (0 : Fin 1))

/-- The finish at its one entry is the specification's total of the five columns. -/
theorem finish_apply (s0 s1 s2 s3 s4 : Vec Ideal S64x1 .f32) :
    finish s0 s1 s2 s3 s4 (ix2 (0 : Fin 1) (0 : Fin 1)) = total (col s0) (col s1) (col s2) (col s3) (col s4) := by
  have hn : k0_pay7 s0 (ix2 (0 : Fin 1) (0 : Fin 1)) = nValid (col s0) := by
    unfold k0_pay7
    refine (Cert.LibKeepdims.shapeCast_a_a1_apply _ shapeCasts_S1_S1x1 0 0).trans ?_
    refine (Cert.LibColumnSum.colSum_apply _ reduces_S64x1_S1 (.inl rfl) rfl 0).trans ?_
    exact Finset.sum_congr rfl fun r _ => toInt_setWidth _
  have ht : k0_pay8 s0 s1 s3 s4 s2 (ix2 (0 : Fin 1) (0 : Fin 1)) = sumValid (col s0) (col s1) (col s2) (col s3) (col s4) := by
    unfold k0_pay8
    refine (Cert.LibKeepdims.shapeCast_a_a1_apply _ shapeCasts_S1_S1x1 0 0).trans ?_
    refine (Cert.LibColumnSum.colSum_apply _ reduces_S64x1_S1 (.inl rfl) rfl 0).trans ?_
    exact Finset.sum_congr rfl fun r _ => rfl
  unfold finish k0_pay5 k0_pay9
  show Scalar.select (Ideal.cmp .ogt (k0_pay7 s0 (ix2 (0 : Fin 1) (0 : Fin 1))) (lit 0x00000000#32))
      (Ideal.div (k0_pay8 s0 s1 s3 s4 s2 (ix2 (0 : Fin 1) (0 : Fin 1)))
        (max (k0_pay7 s0 (ix2 (0 : Fin 1) (0 : Fin 1))) (lit 0x3F800000#32))) (lit 0x00000000#32) = _
  rw [hn, ht]
  rfl

end Cert.KernelIdeal.Cols

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.KernelSums.lean ====
/-
  The five columns after the last point are the five row totals, and the output entry is the loss.

  The block at point t holds columns 4096 t .. 4096 t + 4095 of the [64, 262144] arrays, so a block's row sum of a cell
  term is the sum of that term over those columns of the row. A column built by adding the blocks one after the other
  into the zero column therefore reads, at row b, the sum over the points so far of the blocks' row sums (induction on
  the point). The 64 blocks of 4096 columns are all 262144 columns, each once: regrouping a finite sum — a law of any
  commutative monoid, so it holds on the extended reals with their infinities — turns the sum over the points into the
  row's total. The last point's output entry is the finish of the five columns: the specification's loss.
-/
import proofs.«100224_j16965120819239_1_alg».proof.Proof.ColumnRun
import proofs.«100224_j16965120819239_1_alg».proof.Proof.ColumnValues
import proofs.«100224_j16965120819239_1_alg».proof.Proof.LibBlockSum

set_option maxRecDepth 16384

noncomputable section

open scoped BigOperators
open Idealize.ShloMosaic Idealize.ShloMosaic.TcCoe Idealize.SL.Sem Idealize.ShloMosaic.ValueIdx

namespace Cert.KernelIdeal.Cols

open Cert.KernelIdeal Cert.KernelIdeal.Gen Cert.Loss

variable (m : (ℓ : Loc nD τ sig) → Buf (Elt Ideal) ℓ)

/-! ## A block is 4096 consecutive columns of the array -/

/-- The two input windows' block index at point `t` is `(0, t)`. -/
theorem idx_w0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_w1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Column `l` of block `s` is a column of the array. -/
theorem col_lt {s : ℕ} (hs : s < 64) (l : Fin 4096) : 4096 * s + l.val < 262144 := by
  have := l.isLt
  omega

/-- The logits and the targets as the region finds them: [64, 262144] arrays. -/
abbrev Xa (c : Dev nD) : Arr := V m c main_v0
abbrev Ta (c : Dev nD) : Arr := V m c main_v1

theorem pt_lt (t : Fin cfg0.N) : t.val < 64 := lt_of_lt_of_eq t.isLt N_0

/-- An entry of the logits' block at point `t` is the array's entry in column 4096 t + l. -/
theorem xblk_apply (c : Dev nD) (t : Fin cfg0.N) (b : Fin 64) (l : Fin 4096) :
    (iblk m c 0 t : Vec Ideal S64x4096 .f32) (ix2 b l) = Xa m c (ix2 b ⟨4096 * t.val + l.val, col_lt (pt_lt t) l⟩) := by
  unfold iblk
  rw [View.read_apply]
  show V m c main_v0 _ = V m c main_v0 _
  refine congrArg (V m c main_v0) (funext fun a => Fin.ext ?_)
  match a with
  | ⟨0, _⟩ =>
    show win0_0.index t 0 * 64 + 1 * b.val = b.val
    rw [(idx_w0 t).1]; omega
  | ⟨1, _⟩ =>
    show win0_0.index t 1 * 4096 + 1 * l.val = 4096 * t.val + l.val
    rw [(idx_w0 t).2]; omega

/-- The same for the targets' block. -/
theorem tblk_apply (c : Dev nD) (t : Fin cfg0.N) (b : Fin 64) (l : Fin 4096) :
    (iblk m c 1 t : Vec Ideal S64x4096 .f32) (ix2 b l) = Ta m c (ix2 b ⟨4096 * t.val + l.val, col_lt (pt_lt t) l⟩) := by
  unfold iblk
  rw [View.read_apply]
  show V m c main_v1 _ = V m c main_v1 _
  refine congrArg (V m c main_v1) (funext fun a => Fin.ext ?_)
  match a with
  | ⟨0, _⟩ =>
    show win0_1.index t 0 * 64 + 1 * b.val = b.val
    rw [(idx_w1 t).1]; omega
  | ⟨1, _⟩ =>
    show win0_1.index t 1 * 4096 + 1 * l.val = 4096 * t.val + l.val
    rw [(idx_w1 t).2]; omega

/-! ## A column after point n -/

/-- Row `b`'s sum of a cell term over the columns of block `s` (zero for a block number out of range: never used). -/
def blockRow (f : EReal → EReal → EReal) (X T : Arr) (b : Fin 64) (s : ℕ) : EReal :=
  if hs : s < 64 then ∑ l : Fin 4096, f (X (ix2 b ⟨4096 * s + l.val, col_lt hs l⟩)) (T (ix2 b ⟨4096 * s + l.val, col_lt hs l⟩))
  else 0

/-- The row sum of a cell term over the block at point `t` is `blockRow` at `t`. -/
theorem blockRow_pt (f : EReal → EReal → EReal) (c : Dev nD) (t : Fin cfg0.N) (b : Fin 64) :
    ∑ l : Fin 4096, f ((iblk m c 0 t : Vec Ideal S64x4096 .f32) (ix2 b l)) ((iblk m c 1 t : Vec Ideal S64x4096 .f32) (ix2 b l))
      = blockRow f (Xa m c) (Ta m c) b t.val := by
  unfold blockRow
  rw [dif_pos (pt_lt t)]
  exact Finset.sum_congr rfl fun l _ => by rw [xblk_apply m c t b l, tblk_apply m c t b l]

/-- A column that starts at the zero column and takes one block after the other, each by an update that adds the
    block's row sums of a cell term, reads at row `b` the sum over the points so far of the blocks' row sums. -/
theorem chain_apply (f : EReal → EReal → EReal)
    (upd : Vec Ideal S64x4096 .f32 → Vec Ideal S64x4096 .f32 → Vec Ideal S64x1 .f32 → Vec Ideal S64x1 .f32)
    (hupd : ∀ (y0 y1 : Vec Ideal S64x4096 .f32) (a : Vec Ideal S64x1 .f32) (b : Fin 64) (u : Fin 1),
      upd y0 y1 a (ix2 b u) = a (ix2 b u) + ∑ l : Fin 4096, f (y0 (ix2 b l)) (y1 (ix2 b l)))
    (c : Dev nD) (s : (n : ℕ) → n < cfg0.N → Vec Ideal S64x1 .f32)
    (h0 : ∀ h, s 0 h = upd (iblk m c 0 ⟨0, h⟩) (iblk m c 1 ⟨0, h⟩) zeroCol)
    (hs : ∀ n h, s (n + 1) h = upd (iblk m c 0 ⟨n + 1, h⟩) (iblk m c 1 ⟨n + 1, h⟩) (s n (Nat.lt_of_succ_lt h)))
    (b : Fin 64) (u : Fin 1) :
    ∀ (n : ℕ) (h : n < cfg0.N), s n h (ix2 b u) = ∑ k ∈ Finset.range (n + 1), blockRow f (Xa m c) (Ta m c) b k
  | 0, h => by
    rw [h0 h, hupd (iblk m c 0 ⟨0, h⟩) (iblk m c 1 ⟨0, h⟩) zeroCol b u, zeroCol_apply, zero_add, Finset.sum_range_one]
    exact blockRow_pt m f c ⟨0, h⟩ b
  | n + 1, h => by
    rw [hs n h, hupd (iblk m c 0 ⟨n + 1, h⟩) (iblk m c 1 ⟨n + 1, h⟩) (s n (Nat.lt_of_succ_lt h)) b u,
      chain_apply f upd hupd c s h0 hs b u n (Nat.lt_of_succ_lt h), Finset.sum_range_succ _ (n + 1)]
    exact congrArg (_ + ·) (blockRow_pt m f c ⟨n + 1, h⟩ b)

/-! ## After the last point -/

/-- The 64 blocks' row sums add up to the row's total: the blocks are all the columns, each once. -/
theorem blocks_total (f : EReal → EReal → EReal) (X T : Arr) (b : Fin 64) :
    ∑ k ∈ Finset.range 64, blockRow f X T b k = rowTotal f X T b := by
  refine (Cert.LibBlockSum.sum_blocks_range 64 4096 (fun j => f (X (ix2 b ⟨j.val, j.isLt⟩)) (T (ix2 b ⟨j.val, j.isLt⟩)))
    (blockRow f X T b) fun s => ?_).trans ?_
  · unfold blockRow
    rw [dif_pos s.isLt]
  · rfl

/-- The last point. -/
theorem last_lt : 63 < cfg0.N := by rw [show cfg0.N = 64 from N_0]; decide

/-- After the last point the five columns read, at every row, the five row totals. -/
theorem fg_col (c : Dev nD) (b : Fin 64) : col (cols m c 63 last_lt).1 b = rowTotal fgTerm (Xa m c) (Ta m c) b :=
  (chain_apply m fgTerm addFg addFg_apply c (fun n h => (cols m c n h).1) (fun _ => rfl) (fun _ _ => rfl) b 0 63 last_lt).trans
    (blocks_total fgTerm _ _ b)
theorem wbce_col (c : Dev nD) (b : Fin 64) : col (cols m c 63 last_lt).2.1 b = rowTotal wbceTerm (Xa m c) (Ta m c) b :=
  (chain_apply m wbceTerm addWbce addWbce_apply c (fun n h => (cols m c n h).2.1) (fun _ => rfl) (fun _ _ => rfl) b 0 63 last_lt).trans
    (blocks_total wbceTerm _ _ b)
theorem pt_col (c : Dev nD) (b : Fin 64) : col (cols m c 63 last_lt).2.2.1 b = rowTotal ptTerm (Xa m c) (Ta m c) b :=
  (chain_apply m ptTerm addPt addPt_apply c (fun n h => (cols m c n h).2.2.1) (fun _ => rfl) (fun _ _ => rfl) b 0 63 last_lt).trans
    (blocks_total ptTerm _ _ b)
theorem p_col (c : Dev nD) (b : Fin 64) : col (cols m c 63 last_lt).2.2.2.1 b = rowTotal pTerm (Xa m c) (Ta m c) b :=
  (chain_apply m pTerm addP addP_apply c (fun n h => (cols m c n h).2.2.2.1) (fun _ => rfl) (fun _ _ => rfl) b 0 63 last_lt).trans
    (blocks_total pTerm _ _ b)
theorem t_col (c : Dev nD) (b : Fin 64) : col (cols m c 63 last_lt).2.2.2.2 b = rowTotal tTerm (Xa m c) (Ta m c) b :=
  (chain_apply m tTerm addT addT_apply c (fun n h => (cols m c n h).2.2.2.2) (fun _ => rfl) (fun _ _ => rfl) b 0 63 last_lt).trans
    (blocks_total tTerm _ _ b)

/-- The output's staging buffer after the last point holds, at its one entry, the loss of the arrays the region finds. -/
theorem out_entry (c : Dev nD) :
    (outsAt0 m c 63 last_lt).1 (ix2 (0 : Fin 1) (0 : Fin 1)) = loss (Xa m c) (Ta m c) := by
  rw [out_eq m c 62 last_lt (by decide)]
  unfold finishAll
  rw [finish_apply]
  unfold loss
  rw [funext (fg_col m c), funext (wbce_col m c), funext (pt_col m c), funext (p_col m c), funext (t_col m c)]

end Cert.KernelIdeal.Cols

end
-- ==== Proof.KernelResult.lean ====
/-
  The kernel's result: the scalar it returns is the loss of its reshaped arguments.

  The output window's block index never moves and its block is the whole [1, 1] array; it is written back once, after the
  last point, when it holds the loss at its one entry. So the array ends holding the loss, and the host line after the
  region, a reshape of [1, 1] to a scalar, hands it on unchanged. The arrays the region reads are the host's reshapes of
  the two arguments from [64, 1, 512, 512] to [64, 262144].
-/
import proofs.«100224_j16965120819239_1_alg».proof.Proof.KernelSums
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Cols Cert.Loss

variable (m : (ℓ : Loc nD τ sig) → Buf (Elt Ideal) ℓ) (ρ : Dev nD → PrngReg)

/-- The last point. -/
abbrev tLast : Fin cfg0.N := ⟨63, last_lt⟩

/-- The [1, 1] array holding the loss. -/
abbrev lossBlock (c : Dev nD) : Buf (Elt Ideal) ((c : Thread nD τ).loc main_v2) := fun _ => loss (Xa m c) (Ta m c)

/-- A [1, 1] array has one index. -/
theorem idx_one (y : S1x1.Idx) : y = ix2 (0 : Fin 1) (0 : Fin 1) := by
  refine (eq_ix2 y).trans ?_
  have h0 : y 0 = (0 : Fin 1) := Fin.ext (Nat.lt_one_iff.mp (y 0).isLt)
  have h1 : y 1 = (0 : Fin 1) := Fin.ext (Nat.lt_one_iff.mp (y 1).isLt)
  rw [h0, h1]
  rfl

/-- After the last point the output's staging buffer is the loss block. -/
theorem out_block (c : Dev nD) : (outsAt0 m c 63 last_lt).1 = fun _ => loss (Xa m c) (Ta m c) := by
  funext y
  rw [idx_one y]
  exact out_entry m c

/-- The same at any name of the last point. -/
theorem out_block_at (c : Dev nD) (t : Fin cfg0.N) (ht : t.val = 63) :
    (outsAt0 m c t.val t.isLt).1 = fun _ => loss (Xa m c) (Ta m c) := by
  obtain ⟨n, hn⟩ := t
  obtain rfl : n = 63 := ht
  exact out_block m c

/-- The one write-back, after the last point, writes the loss block. -/
theorem flushed_eq (c : Dev nD) (t : Fin cfg0.N) (hf : (cfg0.win 2).flush t = true) :
    (dats m 0 c).flushed 2 t = ((cfg0.win 2).blk t).view.read (Elt Ideal) (lossBlock m c) := by
  have h63 : t.val = 63 := by have := (flush0_2 t).mp hf; have := pt_lt t; omega
  show (cfg0.win 2).cut (grid0.coords t) ((dats m 0 c).after 2 t) = _
  rw [after0_2, out_block_at m c t h63]
  funext y
  rw [View.read_apply]
  rfl

/-- So the [1, 1] array ends holding the loss: the last point's block covers it. -/
theorem final_out (c : Dev nD) : (dats m 0 c).arrAt 2 cfg0.N = lossBlock m c :=
  (dats m 0 c).arrAt_eq_of_cover 2 (lossBlock m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The host line after the region reshapes the [1, 1] array to the scalar the program returns: the loss. -/
theorem tail_eq (c : Dev nD) :
    Pipeline.afterTail₀ cfgs (dats m) 0 (V0 m) [hostOps1] c main_v3 = fun _ => loss (Xa m c) (Ta m c) := by
  unfold Pipeline.afterTail₀
  show StableHlo.after hostOps1 _ (Proc.devRef .tc main_v3) = _
  after_results
  have hW : Pipeline.withArrays spec0 c (V0 m c) (fun w => (dats m 0 c).arrAt w cfg0.N) (Proc.devRef .tc main_v2)
      = lossBlock m c :=
    (Pipeline.withArrays_arr spec0 launch0.win.arr_inj c _ _ 2).trans (final_out m c)
  funext i
  show shapeCast S_ (Pipeline.withArrays spec0 c (V0 m c) (fun w => (dats m 0 c).arrAt w cfg0.N) (Proc.devRef .tc main_v2))
      shapeCasts_S1x1_S_ i = _
  rw [hW]
  rfl

/-- The arrays the region reads are the host's reshapes of the two arguments. -/
theorem Xa_eq (c : Dev nD) :
    Xa m c = shapeCast S64x262144 (m ((c : Thread nD τ).loc main_arg0)) shapeCasts_S64x1x512x512_S64x262144 := by
  show StableHlo.after hostOps0 (fun b => m (c, b)) (Proc.devRef .tc main_v0) = _
  after_results
  rfl
theorem Ta_eq (c : Dev nD) :
    Ta m c = shapeCast S64x262144 (m ((c : Thread nD τ).loc main_arg1)) shapeCasts_S64x1x512x512_S64x262144 := by
  show StableHlo.after hostOps0 (fun b => m (c, b)) (Proc.devRef .tc main_v1) = _
  after_results
  rfl

/-- The run, read: the scalar the program returns is the loss of the reshaped arguments, and the arguments are as launched. -/
theorem run : θ_run defs (onTc (τ := τ) (main (F := Ideal))) ⟨m, fun _ => 0, ρ⟩ fun r => ∀ c : Dev nD,
      r.2.mem ((c : Thread nD τ).loc main_v3) = (fun _ => loss (Xa m c) (Ta m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.lean ====
/-
  The small-target loss kernel against its jnp reference, on the extended reals.

  Both programs take logits and targets of shape [64, 1, 512, 512], reshape them to [64, 262144], and return one number:
  per row b five totals over the row's cells (foreground count, weighted cross-entropy with logits, sigmoid * target,
  sigmoid, target), from them the row's validity (foreground share below a threshold) and its sample loss
  0.6 * mean cross-entropy + 0.4 * dice loss, and finally the mean of the sample losses over the valid rows, or zero when
  there is none. The reference takes each total as one sum over the row. The kernel walks the 64 blocks of 4096 columns,
  keeps the five totals as [64, 1] columns that start at zero and receive each block's row sums, and at the last block
  turns the five columns into the number, which it writes to a [1, 1] array that the host then reshapes to a scalar.

  The two agree because a sum over 262144 cells is the sum over the 64 blocks of each block's sum: regrouping a finite
  sum, which holds in every commutative monoid and so on the extended reals whatever the entries are; no entry has to be
  finite, and the precondition is not used. The cell terms and the finish are the same arithmetic on both sides, up to
  three spellings: the kernel's foreground indicator is the comparison's bit widened and read signed where the reference
  reads it unsigned (both the number 0 or 1), the kernel negates |x| as 0 - |x|, and the kernel's sigmoid is the logistic
  operation where the reference writes 1 / (1 + exp(-x)) (one function on the extended reals).

  The ideal pass rewrote nothing, so the kernel's idealization is its own text: that conjunct is trivial. The three frame
  conjuncts are the generated frame runs; the reference's is its run with the result dropped.
-/
import proofs.«100224_j16965120819239_1_alg».proof.Defs
import proofs.«100224_j16965120819239_1_alg».proof.Proof.Gen.Kernel
import proofs.«100224_j16965120819239_1_alg».proof.Proof.Gen.Kernel.Skeleton
import proofs.«100224_j16965120819239_1_alg».proof.Proof.Gen.Kernel.Launch
import proofs.«100224_j16965120819239_1_alg».proof.Proof.Gen.Kernel.Points
import proofs.«100224_j16965120819239_1_alg».proof.Proof.Gen.Kernel.Frame
import proofs.«100224_j16965120819239_1_alg».proof.Proof.Gen.KernelIdeal
import proofs.«100224_j16965120819239_1_alg».proof.Proof.Gen.KernelIdeal.Skeleton
import proofs.«100224_j16965120819239_1_alg».proof.Proof.Gen.KernelIdeal.Launch
import proofs.«100224_j16965120819239_1_alg».proof.Proof.Gen.KernelIdeal.Points
import proofs.«100224_j16965120819239_1_alg».proof.Proof.Gen.KernelIdeal.Frame
import proofs.«100224_j16965120819239_1_alg».proof.Proof.Gen.ReferenceIdeal
import proofs.«100224_j16965120819239_1_alg».proof.Proof.Gen.Pre_finite_inputs
import proofs.«100224_j16965120819239_1_alg».proof.Proof.RefRun
import proofs.«100224_j16965120819239_1_alg».proof.Proof.RefRead
import proofs.«100224_j16965120819239_1_alg».proof.Proof.ReferenceLoss
import proofs.«100224_j16965120819239_1_alg».proof.Proof.KernelResult
import Idealize.ShloMosaic.Adequacy
import Idealize.ShloMosaic.Init

noncomputable section

namespace Cert.Proof

open Idealize.ShloMosaic Idealize.ShloMosaic.ValueIdx Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the loss of the reshaped arguments, which agree. -/
theorem algebraic : Cert.algebraic_KernelIdeal_ReferenceIdeal := by
  intro m ρ m' ρ' _ hagree
  refine ⟨fun c _ => Cert.Loss.loss (Cert.KernelIdeal.Cols.Xa m c) (Cert.KernelIdeal.Cols.Ta m c),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v61_eq]
  funext i
  rw [eq_ix0 i, Cert.ReferenceIdeal.RefLoss.result_eq, (hagree c).1, (hagree c).2]
  show _ = Cert.Loss.loss (Cert.KernelIdeal.Cols.Xa m c) (Cert.KernelIdeal.Cols.Ta m c)
  rw [Cert.KernelIdeal.Result.Xa_eq, Cert.KernelIdeal.Result.Ta_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
